-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x768 : Shape := ⟨3, ![4096, 1, 768]⟩
abbrev S1x4096x768 : Shape := ⟨3, ![1, 4096, 768]⟩
abbrev S_ : Shape := ⟨0, ![]⟩

class Facts : Prop where
  bcast_S_S4096x1x768 : S_.BroadcastsInDim S4096x1x768 (![] : Fin 0 → Fin S4096x1x768.rank)
  reducesTo_S4096x1x768_S_d0_1_2 : S4096x1x768.ReducesTo [0, 1, 2] S_
  h_S_ : 0 < S_.numel
  bcast_S_S1x4096x768 : S_.BroadcastsInDim S1x4096x768 (![] : Fin 0 → Fin S1x4096x768.rank)
  reducesTo_S1x4096x768_S_d0_1_2 : S1x4096x768.ReducesTo [0, 1, 2] S_

variable [Facts]

def fn {F : FTy → Type} [FloatOps F] (main_arg0 : FVec F S4096x1x768 .f32) (main_arg1 : FVec F S1x4096x768 .f32) : IVec S_ 1 :=
  let main_v0 : FVec F S4096x1x768 .f32 := Host.absf main_arg0
  let main_cst : FVec F S_ .f32 := constant S_ .f32 0x7F800000#32
  let main_v1 : FVec F S4096x1x768 .f32 := broadcastInDim S4096x1x768 ![] bcast_S_S4096x1x768 main_cst
  let main_v2 : IVec S4096x1x768 1 := cmpf .olt main_v0 main_v1
  let main_c : IVec S_ 1 := constantI S_ 1 1#1
  let main_v3 : IVec S_ 1 := (fun x v => Host.reduce IntOp.andi x v reducesTo_S4096x1x768_S_d0_1_2 h_S_) main_v2 main_c
  let main_v4 : FVec F S1x4096x768 .f32 := Host.absf main_arg1
  let main_cst_0 : FVec F S_ .f32 := constant S_ .f32 0x7F800000#32
  let main_v5 : FVec F S1x4096x768 .f32 := broadcastInDim S1x4096x768 ![] bcast_S_S1x4096x768 main_cst_0
  let main_v6 : IVec S1x4096x768 1 := cmpf .olt main_v4 main_v5
  let main_c_1 : IVec S_ 1 := constantI S_ 1 1#1
  let main_v7 : IVec S_ 1 := (fun x v => Host.reduce IntOp.andi x v reducesTo_S1x4096x768_S_d0_1_2 h_S_) main_v6 main_c_1
  let main_v8 : IVec S_ 1 := andi main_v3 main_v7
  main_v8
-- ==== Kernel.lean ====
abbrev S4096x1x768 : Shape := ⟨3, ![4096, 1, 768]⟩
abbrev S1x4096x768 : Shape := ⟨3, ![1, 4096, 768]⟩
abbrev S4096x4096 : Shape := ⟨2, ![4096, 4096]⟩
abbrev S512x1x768 : Shape := ⟨3, ![512, 1, 768]⟩
abbrev S512x4096 : Shape := ⟨2, ![512, 4096]⟩
abbrev S4096x768 : Shape := ⟨2, ![4096, 768]⟩
abbrev S4096 : Shape := ⟨1, ![4096]⟩
abbrev S4096x1 : Shape := ⟨2, ![4096, 1]⟩
abbrev S512x768 : Shape := ⟨2, ![512, 768]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1x768, .f32⟩
  | .hbm, ⟨1, _⟩ => ⟨S1x4096x768, .f32⟩
  | .hbm, ⟨2, _⟩ => ⟨S4096x4096, .f32⟩
  | .local _ .vmem, ⟨0, _⟩ => ⟨S512x1x768, .f32⟩
  | .local _ .vmem, ⟨1, _⟩ => ⟨S512x1x768, .f32⟩
  | .local _ .vmem, ⟨2, _⟩ => ⟨S1x4096x768, .f32⟩
  | .local _ .vmem, ⟨3, _⟩ => ⟨S512x4096, .f32⟩
  | .local _ .vmem, ⟨4, _⟩ => ⟨S512x4096, .f32⟩
  | .local _ .vmem, ⟨5, _⟩ => ⟨S4096x768, .bf16⟩
  | _, _ => ⟨S4096x1x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x4096x768_S1x4096x768_0_0_0 : ∀ a, (![0, 0, 0] : Fin 3 → Nat) a + S1x4096x768.size a ≤ S1x4096x768.size a
  h_S1x4096x768 : 0 < S1x4096x768.numel
  shapeCasts_S1x4096x768_S4096x768 : S1x4096x768.ShapeCasts S4096x768
  reduces_S4096x768_S4096 : S4096x768.Reduces [1] S4096
  shapeCasts_S4096_S4096x1 : S4096.ShapeCasts S4096x1
  broadcasts_S4096x1_S4096x768 : S4096x1.Broadcasts S4096x768
  bitsLt_bf16_f32 : FTy.bits .bf16 < FTy.bits .f32
  inb_S4096x768_S4096x768_0_0 : ∀ a, (![0, 0] : Fin 2 → Nat) a + S4096x768.size a ≤ S4096x768.size a
  h_S4096x768 : 0 < S4096x768.numel
  shapeCasts_S4096x768_S4096x768 : S4096x768.ShapeCasts S4096x768
  packedbf16_S4096x768_S4096x768_0_0 : (Rect.unit (s := S4096x768) ![0, 0] S4096x768.size inb_S4096x768_S4096x768_0_0).PackedRows (EltTy.packing .bf16)
  inb_S512x1x768_S512x1x768_0_0_0 : ∀ a, (![0, 0, 0] : Fin 3 → Nat) a + S512x1x768.size a ≤ S512x1x768.size a
  h_S512x1x768 : 0 < S512x1x768.numel
  shapeCasts_S512x1x768_S512x768 : S512x1x768.ShapeCasts S512x768
  reduces_S512x768_S512 : S512x768.Reduces [1] S512
  shapeCasts_S512_S512x1 : S512.ShapeCasts S512x1
  broadcasts_S512x1_S512x768 : S512x1.Broadcasts S512x768
  inb_S512x4096_S512x4096_0_0 : ∀ a, (![0, 0] : Fin 2 → Nat) a + S512x4096.size a ≤ S512x4096.size a
  h_S512x4096 : 0 < S512x4096.numel
  dot_S512x768_S4096x768_S512x4096_1_1_0_0_n_n_wf : DotDims.WF S512x768 S4096x768 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1x768.size a ≤ S4096x1x768.size a
  hwx0_0 : ∀ i : grid0.Coords, EltTy.bits .f32 = 32 ∨ (Rect.block (s := S4096x1x768) S512x1x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096x768.size a ≤ S1x4096x768.size a
  hwx0_1 : ∀ i : grid0.Coords, EltTy.bits .f32 = 32 ∨ (Rect.block (s := S1x4096x768) S1x4096x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)

variable [Facts₀]

def dot_S512x768_S4096x768_S512x4096_1_1_0_0_n_n : DotDims S512x768 S4096x768 S512x4096 where
  lhsContracting := [1]
  rhsContracting := [1]
  lhsNonContracting := [0]
  rhsNonContracting := [0]
  lhsBatch := []
  rhsBatch := []
  wf := dot_S512x768_S4096x768_S512x4096_1_1_0_0_n_n_wf

abbrev win0_0 : Pipeline.Window sig grid0 :=
  Pipeline.Window.ofSpec (Memref.whole main_arg0) S512x1x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1x768 : Shape := ⟨3, ![4096, 1, 768]⟩
abbrev S1x4096x768 : Shape := ⟨3, ![1, 4096, 768]⟩
abbrev S4096x768 : Shape := ⟨2, ![4096, 768]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S768x4096 : Shape := ⟨2, ![768, 4096]⟩
abbrev S4096x4096 : Shape := ⟨2, ![4096, 4096]⟩
abbrev S512x768 : Shape := ⟨2, ![512, 768]⟩
abbrev S768x512 : Shape := ⟨2, ![768, 512]⟩
abbrev S512x1 : Shape := ⟨2, ![512, 1]⟩
abbrev S1x512 : Shape := ⟨2, ![1, 512]⟩
abbrev S512x512 : Shape := ⟨2, ![512, 512]⟩

abbrev nBuf : Space → Nat
  | .hbm => 26
  | .vmem => 10
  | .smem => 0
  | _ => 0

abbrev bufTy : (tb : Table) → Fin (tcTables nBuf tb) → BufTy
  | .hbm, ⟨0, _⟩ => ⟨S4096x1x768, .f32⟩
  | .hbm, ⟨1, _⟩ => ⟨S1x4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x768, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S1x4096, .f32⟩
  | .hbm, ⟨24, _⟩ => ⟨S768x4096, .f32⟩
  | .hbm, ⟨25, _⟩ => ⟨S4096x4096, .f32⟩
  | .local _ .vmem, ⟨0, _⟩ => ⟨S512x768, .f32⟩
  | .local _ .vmem, ⟨1, _⟩ => ⟨S512x768, .f32⟩
  | .local _ .vmem, ⟨2, _⟩ => ⟨S768x512, .f32⟩
  | .local _ .vmem, ⟨3, _⟩ => ⟨S768x512, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S4096x1x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4096x1x768_S4096x768 : S4096x1x768.ShapeCasts S4096x768
  shapeCasts_S1x4096x768_S4096x768 : S1x4096x768.ShapeCasts S4096x768
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  transposes_S4096x1_S1x4096_1_0 : S4096x1.Transposes [1, 0] S1x4096
  transposes_S4096x768_S768x4096_1_0 : S4096x768.Transposes [1, 0] S768x4096
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x768_S768x512_S512x512_1_0_0_1_n_n_wf : DotDims.WF S512x768 S768x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x512.size a ≤ S768x4096.size a
  hwx0_1 : ∀ i : grid0.Coords, EltTy.bits .f32 = 32 ∨ (Rect.block (s := S768x4096) S768x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S768x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The similarity matrix, entry by entry, on the extended reals.

  For rows a, b of length 768 the inverse norm of a row is rsqrt (max (Σ a_k², ε)), ε the f32 word of 1e-16.
  Two arrangements of the cosine similarity of row p of x and row q of y, scaled by the f32 word of 20:
    * the product of the plain dot product with the two inverse norms (the scale folded into the first), and
    * the dot product of the two rows after each has been multiplied by its inverse norm.
  The output array is 4096 × 4096; x is read at (p, 0, k) and y at (0, q, k).
-/
import Idealize.ShloMosaic.PureOps.Ideal
import Idealize.ShloMosaic.Lib.ValueIdx

noncomputable section

open scoped BigOperators

namespace Cert.Sim

open Idealize.ShloMosaic Idealize.ShloMosaic.ValueIdx

abbrev SX : Shape := ⟨3, ![4096, 1, 768]⟩
abbrev SY : Shape := ⟨3, ![1, 4096, 768]⟩
abbrev SO : Shape := ⟨2, ![4096, 4096]⟩

/-- The floor under a row's sum of squares: the f32 word of 1e-16. -/
def eps : EReal := Ideal.ofBits .f32 0x24E69595#32
/-- The inverse temperature: the f32 word of 20. -/
def scale : EReal := Ideal.ofBits .f32 0x41A00000#32

/-- The inverse norm of a row, floored: rsqrt (max (Σ_k r_k · r_k) ε). -/
def invNorm (r : Fin 768 → EReal) : EReal := Ideal.rsqrt (max (∑ k, r k * r k) eps)

/-- Row p of x and row q of y. -/
def xrow (x : FVec Ideal SX .f32) (p : Fin 4096) : Fin 768 → EReal := fun k => x (ix3 p (0 : Fin 1) k)
def yrow (y : FVec Ideal SY .f32) (q : Fin 4096) : Fin 768 → EReal := fun k => y (ix3 (0 : Fin 1) q k)

/-- One entry, the dot product taken first: ((Σ_k a_k · b_k) · (invNorm a · scale)) · invNorm b. -/
def dotThenScale (a b : Fin 768 → EReal) : EReal := ((∑ k, a k * b k) * (invNorm a * scale)) * invNorm b
/-- One entry, the rows scaled first: Σ_k (a_k · (invNorm a · scale)) · (b_k · invNorm b). -/
def scaleThenDot (a b : Fin 768 → EReal) : EReal := ∑ k, (a k * (invNorm a * scale)) * (b k * invNorm b)

/-- The whole array in the first arrangement. -/
def G (x : FVec Ideal SX .f32) (y : FVec Ideal SY .f32) : FVec Ideal SO .f32 :=
  fun o => dotThenScale (xrow x (o 0)) (yrow y (o 1))
/-- The whole array in the second arrangement. -/
def Gs (x : FVec Ideal SX .f32) (y : FVec Ideal SY .f32) : FVec Ideal SO .f32 :=
  fun o => scaleThenDot (xrow x (o 0)) (yrow y (o 1))

theorem G_apply (x : FVec Ideal SX .f32) (y : FVec Ideal SY .f32) (p q : Fin 4096) :
    G x y (ix2 p q) = dotThenScale (xrow x p) (yrow y q) := rfl
theorem Gs_apply (x : FVec Ideal SX .f32) (y : FVec Ideal SY .f32) (p q : Fin 4096) :
    Gs x y (ix2 p q) = scaleThenDot (xrow x p) (yrow y q) := rfl

end Cert.Sim

end
-- ==== Proof.Algebra.lean ====
/-
  The two arrangements of one entry agree when every entry of both rows is a real number.

  With real rows the floored sum of squares is a positive real, so each inverse norm is a real; the scale is a real;
  then both arrangements are the image of one real number: Σ_k (a_k·c)·(b_k·d) = ((Σ_k a_k·b_k)·c)·d in ℝ, by
  distributing the sum and reordering the factors. (On the extended reals the distributive law fails at the
  infinities, which is why the rows must be real.)
-/
import proofs.«155782_g2000104895598713_pallasbulk_17_9_alg».proof.Proof.Spec

noncomputable section

open scoped BigOperators

namespace Cert.Sim

open Idealize.ShloMosaic Idealize.ShloMosaic.ValueIdx

/-- The image of a finite real sum is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inverse norm of a real row is a real: the floor ε is positive, so the square root is of a positive real. -/
theorem invNorm_real (a : Fin 768 → EReal) (ha : ∀ k, ∃ r : ℝ, a k = (r : EReal)) (he : ∃ e : ℝ, 0 < e ∧ eps = (e : EReal)) :
    ∃ n : ℝ, invNorm a = (n : EReal) := by
  choose a' ha' using ha
  obtain ⟨e, hepos, hee⟩ := he
  have hsum : (∑ k, a k * a k) = ((∑ k, a' k * a' k : ℝ) : EReal) := by
    rw [coe_sum]; refine Finset.sum_congr rfl fun k _ => ?_; rw [ha' k, EReal.coe_mul]
  unfold invNorm
  have hmax : max ((∑ k, a' k * a' k : ℝ) : EReal) (e : EReal) = ((max (∑ k, a' k * a' k) e : ℝ) : EReal) :=
    (EReal.coe_strictMono.monotone.map_max).symm
  rw [hsum, hee, hmax]
  have hr : 0 < max (∑ k, a' k * a' k) e := lt_max_of_lt_right hepos
  refine ⟨(Real.sqrt (max (∑ k, a' k * a' k) e))⁻¹, ?_⟩
  rw [Ideal.rsqrt_coe, if_neg (not_lt.mpr hr.le), if_neg hr.ne']

/-- One entry: scaling the rows first or the dot product afterwards gives the same number, for real rows. -/
theorem scaleThenDot_eq (a b : Fin 768 → EReal) (ha : ∀ k, ∃ r : ℝ, a k = (r : EReal)) (hb : ∀ k, ∃ r : ℝ, b k = (r : EReal))
    (he : ∃ e : ℝ, 0 < e ∧ eps = (e : EReal)) (hs : ∃ s : ℝ, scale = (s : EReal)) :
    scaleThenDot a b = dotThenScale a b := by
  obtain ⟨na, hna⟩ := invNorm_real a ha he
  obtain ⟨nb, hnb⟩ := invNorm_real b hb he
  obtain ⟨s, hs⟩ := hs
  choose a' ha' using ha
  choose b' hb' using hb
  unfold scaleThenDot dotThenScale
  rw [hna, hnb, hs]
  have h1 : ∀ k, (a k * ((na : EReal) * (s : EReal))) * (b k * (nb : EReal)) = (((a' k * (na * s)) * (b' k * nb) : ℝ) : EReal) := by
    intro k; rw [ha' k, hb' k]; simp only [EReal.coe_mul]
  have h2 : ∀ k, a k * b k = ((a' k * b' k : ℝ) : EReal) := by
    intro k; rw [ha' k, hb' k, EReal.coe_mul]
  rw [Finset.sum_congr rfl (fun k _ => h1 k), Finset.sum_congr rfl (fun k _ => h2 k), ← coe_sum, ← coe_sum,
    ← EReal.coe_mul, ← EReal.coe_mul, ← EReal.coe_mul]
  refine congrArg _ ?_
  rw [Finset.sum_mul, Finset.sum_mul]
  refine Finset.sum_congr rfl fun k _ => ?_
  ring

/-- The whole array: the two arrangements agree on real inputs. -/
theorem Gs_eq_G (x : FVec Ideal SX .f32) (y : FVec Ideal SY .f32)
    (hx : ∀ i, ∃ r : ℝ, x i = (r : EReal)) (hy : ∀ i, ∃ r : ℝ, y i = (r : EReal))
    (he : ∃ e : ℝ, 0 < e ∧ eps = (e : EReal)) (hs : ∃ s : ℝ, scale = (s : EReal)) :
    Gs x y = G x y := by
  funext o
  exact scaleThenDot_eq _ _ (fun k => hx _) (fun k => hy _) he hs

end Cert.Sim

end
-- ==== Proof.Finite.lean ====
/-
  Under the precondition every entry of both inputs is a real number.

  The precondition is the conjunction of two "all entries satisfy |v| < +∞" tests, one per input. Each test is
  a reduction by "and" over all three axes starting from 1; if it comes out 1, every compared entry came out 1.
  An entry a of the extended reals with max a (-a) < ⊤ is neither ⊥ nor ⊤, hence a real number.
-/
import proofs.«155782_g2000104895598713_pallasbulk_17_9_alg».proof.Pre_finite_inputs
import proofs.«155782_g2000104895598713_pallasbulk_17_9_alg».proof.Proof.Spec
import Idealize.ShloMosaic.PureOps.Ideal
import Idealize.ShloMosaic.PureOps.Ideal.Laws
import Idealize.ShloMosaic.Lib.ReduceAll
import Idealize.ShloMosaic.Lib.ValueIdx

noncomputable section

namespace Cert.Sim.Finite

open Idealize.ShloMosaic

/-- An extended real whose absolute value max a (-a) lies strictly below ⊤ is a real number:
    at ⊥ the absolute value is ⊤, at ⊤ it is ⊤, so only the real case remains. -/
theorem real_of_abs_lt_top (a : EReal) (h : max a (-a) < ⊤) : ∃ r : ℝ, a = (r : EReal) := by
  induction a using EReal.rec with
  | bot => simp at h
  | coe r => exact ⟨r, rfl⟩
  | top => simp at h

/-- The f32 word 0x7F800000 is +∞. -/
theorem inf_word : Ideal.ofBits .f32 0x7F800000#32 = (⊤ : EReal) := by simp [Ideal.ofBits, Ideal.ieee]

/-- One compared entry: if "|a| < +∞" came out 1 then a is a real number. -/
theorem real_of_cmp (a : EReal)
    (h : Ideal.cmp .olt (max a (-a)) (Ideal.ofBits .f32 0x7F800000#32) = 1#1) : ∃ r : ℝ, a = (r : EReal) := by
  rw [inf_word] at h
  refine real_of_abs_lt_top a ?_
  by_contra hn
  simp [Ideal.cmp, hn] at h

/-- The result shape of a reduction over all axes has a single index. -/
instance : Subsingleton Cert.Pre_finite_inputs.S_.Idx := ⟨fun a b => funext fun d => d.elim0⟩

theorem finite_of_fn [Cert.Pre_finite_inputs.Facts]
    (x : FVec Ideal Cert.Pre_finite_inputs.S4096x1x768 .f32) (y : FVec Ideal Cert.Pre_finite_inputs.S1x4096x768 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  refine ⟨fun i => ?_, fun i => ?_⟩
  · exact real_of_cmp (x i) (Host.reduce_andi_all _ _ _ _ _ hx i)
  · exact real_of_cmp (y i) (Host.reduce_andi_all _ _ _ _ _ hy i)

/-- The floor ε is a positive real: the word 0x24E69595 has sign 0, exponent field 73 and fraction 6722965, so it
    denotes (2^23 + 6722965) · 2^(73 - 127 - 23) = 15111573 · 2^(-77). -/
theorem eps_pos : ∃ e : ℝ, 0 < e ∧ Cert.Sim.eps = (e : EReal) := by
  refine ⟨15111573 * ((2 : ℝ) ^ 77)⁻¹, by positivity, ?_⟩
  unfold Cert.Sim.eps
  simp [Ideal.ofBits, Ideal.ieee, -EReal.coe_mul]

/-- The scale is 20: the word 0x41A00000 has sign 0, exponent field 131 and fraction 2097152, so it denotes
    (2^23 + 2^21) · 2^(131 - 127 - 23) = 20. -/
theorem scale_eq : Cert.Sim.scale = ((20 : ℝ) : EReal) := by
  unfold Cert.Sim.scale
  simp [Ideal.ofBits, Ideal.ieee, -EReal.coe_mul]
  norm_num

/-- The scale is a real number. -/
theorem scale_real : ∃ s : ℝ, Cert.Sim.scale = (s : EReal) := ⟨20, scale_eq⟩

end Cert.Sim.Finite

end
-- ==== Proof.KerPieces.lean ====
/-
  What the fused kernel's body leaves behind at one grid point, as values.

  At the first grid point the body normalizes the rows of the y block and stores them in a buffer that is carried
  from point to point; at every point it multiplies the scaled rows of the point's x block with the carried rows.
  Each store covers its whole buffer, and each load reads a whole buffer, so what a buffer holds after the body
  is the one stored value, applied to the loaded blocks themselves.
-/
import proofs.«155782_g2000104895598713_pallasbulk_17_9_alg».proof.Proof.Gen.KernelIdeal.Value
import Idealize.ShloMosaic.Lib.Pipeline.Value
import Idealize.ShloMosaic.Lib.Tactic

noncomputable section

namespace Cert.KernelIdeal.KerPieces

open Cert.KernelIdeal Cert.KernelIdeal.Gen Idealize.ShloMosaic Idealize.ShloMosaic.TcCoe Idealize.SL.Sem

variable {F : FTy → Type} [FloatOps F]

/-- A store or load at offset (0, 0) starts at the buffer's origin. -/
theorem hz2 : (![0, 0] : Fin 2 → Nat) = fun _ => 0 := funext fun a => by fin_cases a <;> rfl
/-- The same on three axes. -/
theorem hz3 : (![0, 0, 0] : Fin 3 → Nat) = fun _ => 0 := funext fun a => by fin_cases a <;> rfl

/-- At the first grid point the carried buffer ends holding the normalized rows of the y block. -/
theorem sout_A (c : Dev nD) (i : grid0.Coords) (a1 : Memref sig .tc .vmem S512x1x768 .f32) (h1 : a1.IsWhole)
    (a2 : Memref sig .tc .vmem S1x4096x768 .f32) (h2 : a2.IsWhole) (a3 : Memref sig .tc .vmem S512x4096 .f32) (h3 : a3.IsWhole)
    (a4 : Memref sig .tc .vmem S4096x768 .bf16) (h4 : a4.IsWhole) (hc : cond0_0 i)
    (x0 : Vec F S512x1x768 .f32) (x1 : Vec F S1x4096x768 .f32) :
    sout0_A_0 c i a1 h1 a2 h2 a3 h3 a4 h4 hc x0 x1 = k0_pay1 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero hz2]
  simp only [View.readAt_eq_ld, h2.read_unread, View.ld_unit_zero (S := S1x4096x768) hz3]

/-- At the first grid point the output block is the product of the scaled x block with the rows just stored. -/
theorem out_A (c : Dev nD) (i : grid0.Coords) (a1 : Memref sig .tc .vmem S512x1x768 .f32) (h1 : a1.IsWhole)
    (a2 : Memref sig .tc .vmem S1x4096x768 .f32) (h2 : a2.IsWhole) (a3 : Memref sig .tc .vmem S512x4096 .f32) (h3 : a3.IsWhole)
    (a4 : Memref sig .tc .vmem S4096x768 .bf16) (h4 : a4.IsWhole) (hc : cond0_0 i)
    (x0 : Vec F S512x1x768 .f32) (x1 : Vec F S1x4096x768 .f32) :
    out0_A_2 c i a1 h1 a2 h2 a3 h3 a4 h4 hc x0 x1 = k0_pay2 x0 (k0_pay1 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero (S := S512x4096) hz2, View.readCov_unit_zero (S := S4096x768) _ hz2]
  simp only [View.readAt_eq_ld, h1.read_unread, h2.read_unread, View.ld_unit_zero (S := S512x1x768) hz3,
    View.ld_unit_zero (S := S1x4096x768) hz3]

/-- At a later grid point the output block is the product of the scaled x block with the carried rows. -/
theorem out_B (c : Dev nD) (i : grid0.Coords) (a1 : Memref sig .tc .vmem S512x1x768 .f32) (h1 : a1.IsWhole)
    (a2 : Memref sig .tc .vmem S1x4096x768 .f32) (h2 : a2.IsWhole) (a3 : Memref sig .tc .vmem S512x4096 .f32) (h3 : a3.IsWhole)
    (a4 : Memref sig .tc .vmem S4096x768 .bf16) (h4 : a4.IsWhole) (hc : ¬cond0_0 i)
    (x0 : Vec F S512x1x768 .f32) (x1 : Vec F S1x4096x768 .f32) (xs0 : Vec F S4096x768 .bf16) :
    out0_B_2 c i a1 h1 a2 h2 a3 h3 a4 h4 hc x0 x1 xs0 = k0_pay2 x0 xs0 := by
  unfold out0_B_2
  rw [View.read_writes_eq_canon _ _ _ (cover0_B_2 c i a1 h1 a2 h2 a3 h3 a4 h4 hc x0 x1 xs0)]
  unfold kernelRun0_B
  dsimp only
  sl_unfold_words
  rw [View.canon_unit_zero (S := S512x4096) hz2]
  simp only [View.readAt_eq_ld, h1.read_unread, h4.read_unread, View.ld_unit_zero (S := S512x1x768) hz3,
    View.ld_unit_zero (S := S4096x768) hz2]

end Cert.KernelIdeal.KerPieces

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.KerPayload.lean ====
/-
  The two values the fused kernel stores, read at an index.

  The first is the matrix of y's rows, each multiplied by its inverse norm rsqrt (max (Σ_k y_qk², ε)): the row sum is
  a lane reduction, the inverse norm a column that is broadcast back over the row, and the casts across the unit
  axis keep every entry in place. The second is the output block: row p of the x block is multiplied by its own
  inverse norm and by the inverse temperature, and the block is multiplied with the stored matrix, both operands
  contracted along their second axis — entry (p, q) is the sum over k of the scaled x[p, k] times the stored [q, k].
  A change of float format is the identity on the extended reals.
-/
import proofs.«155782_g2000104895598713_pallasbulk_17_9_alg».proof.Proof.Gen.KernelIdeal.Skeleton
import proofs.«155782_g2000104895598713_pallasbulk_17_9_alg».proof.Proof.Spec
import proofs.«155782_g2000104895598713_pallasbulk_17_9_alg».proof.Proof.LibUnitAxis
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerPayload

open Cert.KernelIdeal Cert.KernelIdeal.Gen Idealize.ShloMosaic Idealize.ShloMosaic.ValueIdx Cert.Lib.UnitAxis

/-- The lane sum of a matrix's entrywise squares, read at a row. -/
theorem rowSumSq4096 (v : FVec Ideal S4096x768 .f32) (h : S4096x768.Reduces [1] S4096) (hφ : FKind.Formats .f32)
    (hacc : (0x00000000#32 : BitVec 32) = 0x00000000#32) (r : Fin 4096) :
    multiReduction .add [1] S4096 (mulf v v) 0x00000000#32 h hφ hacc (ix1 r) = ∑ k : Fin 768, v (ix2 r k) * v (ix2 r k) := by
  refine (Ideal.multiReduction_add_single (mulf v v) _ h hφ hacc (ix1 r)).trans ?_
  show ∑ k : Fin 768, (mulf v v) (h.lift (ix1 r) k) = _
  refine Finset.sum_congr rfl fun k _ => ?_
  have e : h.lift (ix1 r) k = ix2 r k := by
    funext a; refine Fin.ext ?_
    match a with
    | ⟨0, _⟩ => rfl
    | ⟨1, _⟩ => rfl
  rw [e]; rfl

/-- The normalized rows of y: entry (q, k) is y[0, q, k] times the inverse norm of row q. -/
theorem pay1_apply (v19 : Vec Ideal S1x4096x768 .f32) (q : Fin 4096) (k : Fin 768) :
    k0_pay1 (F := Ideal) v19 (ix2 q k)
      = v19 (ix3 (0 : Fin 1) q k) * Cert.Sim.invNorm (fun k' => v19 (ix3 (0 : Fin 1) q k')) := by
  unfold k0_pay1
  dsimp only
  rw [shapeCast_self]
  show (shapeCast S4096x768 v19 _ (ix2 q k)) * (broadcastTo S4096x768 _ _ (ix2 q k)) = _
  rw [shapeCast_1ab_ab_apply, broadcastTo_a1_ab_apply]
  show v19 (ix3 0 q k) * Ideal.rsqrt (max (shapeCast S4096x1 _ _ (ix2 q 0)) (Ideal.ofBits .f32 0x24E69595#32)) = _
  rw [shapeCast_a_a1_apply]
  unfold Cert.Sim.invNorm Cert.Sim.eps
  refine congrArg (fun z => v19 (ix3 0 q k) * Ideal.rsqrt (max z _)) ?_
  refine (rowSumSq4096 _ _ _ _ q).trans ?_
  refine Finset.sum_congr rfl fun k' _ => ?_
  rw [shapeCast_1ab_ab_apply]

/-- The lane sum of a block's entrywise squares, read at a row. -/
theorem rowSumSq512 (v : FVec Ideal S512x768 .f32) (h : S512x768.Reduces [1] S512) (hφ : FKind.Formats .f32)
    (hacc : (0x00000000#32 : BitVec 32) = 0x00000000#32) (r : Fin 512) :
    multiReduction .add [1] S512 (mulf v v) 0x00000000#32 h hφ hacc (ix1 r) = ∑ k : Fin 768, v (ix2 r k) * v (ix2 r k) := by
  refine (Ideal.multiReduction_add_single (mulf v v) _ h hφ hacc (ix1 r)).trans ?_
  show ∑ k : Fin 768, (mulf v v) (h.lift (ix1 r) k) = _
  refine Finset.sum_congr rfl fun k _ => ?_
  have e : h.lift (ix1 r) k = ix2 r k := by
    funext a; refine Fin.ext ?_
    match a with
    | ⟨0, _⟩ => rfl
    | ⟨1, _⟩ => rfl
  rw [e]; rfl

/-- The product's dimension numbers: both operands are contracted along their second axis. -/
abbrev DD : DotDims S512x768 S4096x768 S512x4096 := dot_S512x768_S4096x768_S512x4096_1_1_0_0_n_n

theorem DD_rank : DD.contr.rank = 1 := rfl
theorem DD_size : DD.contr.size ⟨0, by rw [DD_rank]; exact Nat.one_pos⟩ = 768 := rfl

/-- The left operand's index at output (p, q) and contraction coordinate k is (p, k). -/
theorem DD_lhsIdx (p : Fin 512) (q : Fin 4096) (k : Fin 768) :
    DD.lhsIdx (ix2 p q) ((contrEquiv1 DD 768 DD_rank DD_size).symm k) = ix2 p k := by
  funext a
  refine Fin.ext ?_
  match a with
  | ⟨0, _⟩ => rfl
  | ⟨1, _⟩ =>
    refine (DD.lhsIdx_val_of_single (cl := 1) rfl (ix2 p q) _).trans ?_
    exact contrEquiv1_symm_val DD 768 DD_rank DD_size k

/-- The right operand's index at output (p, q) and contraction coordinate k is (q, k): its rows are the output's columns. -/
theorem DD_rhsIdx (p : Fin 512) (q : Fin 4096) (k : Fin 768) :
    DD.rhsIdx (ix2 p q) ((contrEquiv1 DD 768 DD_rank DD_size).symm k) = ix2 q k := by
  funext a
  refine Fin.ext ?_
  match a with
  | ⟨0, _⟩ => rfl
  | ⟨1, _⟩ =>
    refine (DD.rhsIdx_val_of_single (cr := 1) rfl (ix2 p q) _).trans ?_
    exact contrEquiv1_symm_val DD 768 DD_rank DD_size k

/-- The product into the zero accumulator, read at (p, q): the sum over k of L[p, k] · R[q, k]. -/
theorem matmul_rowsT_apply (L : FVec Ideal S512x768 .bf16) (R : FVec Ideal S4096x768 .bf16) (p : Fin 512) (q : Fin 4096) :
    FloatOps.matmul DD none L R (constant S512x4096 .f32 0x00000000#32) (ix2 p q) = ∑ k : Fin 768, L (ix2 p k) * R (ix2 q k) := by
  refine (Ideal.matmul_constant_zero_apply DD none L R (ix2 p q)).trans ?_
  rw [← Equiv.sum_comp (contrEquiv1 DD 768 DD_rank DD_size).symm]
  refine Finset.sum_congr rfl fun k _ => ?_
  rw [DD_lhsIdx, DD_rhsIdx]

/-- The output block: entry (p, q) is the dot product of row p of the x block, scaled by its inverse norm and the
    inverse temperature, with row q of the stored normalized y. -/
theorem pay2_apply (v3 : Vec Ideal S512x1x768 .f32) (v16 : Vec Ideal S4096x768 .bf16) (p : Fin 512) (q : Fin 4096) :
    k0_pay2 (F := Ideal) v3 v16 (ix2 p q)
      = ∑ k : Fin 768, (v3 (ix3 p (0 : Fin 1) k) * (Cert.Sim.invNorm (fun k' => v3 (ix3 p (0 : Fin 1) k')) * Cert.Sim.scale))
          * v16 (ix2 q k) := by
  unfold k0_pay2
  dsimp only
  refine (matmul_rowsT_apply _ _ p q).trans ?_
  refine Finset.sum_congr rfl fun k _ => ?_
  refine congrArg (· * v16 (ix2 q k)) ?_
  show (shapeCast S512x768 v3 _ (ix2 p k)) * (broadcastTo S512x768 _ _ (ix2 p k)) = _
  rw [shapeCast_a1b_ab_apply, broadcastTo_a1_ab_apply]
  show v3 (ix3 p 0 k) * (Ideal.rsqrt (max (shapeCast S512x1 _ _ (ix2 p 0)) (Ideal.ofBits .f32 0x24E69595#32)) * Ideal.ofBits .f32 0x41A00000#32) = _
  rw [shapeCast_a_a1_apply]
  unfold Cert.Sim.invNorm Cert.Sim.eps Cert.Sim.scale
  refine congrArg (fun z => v3 (ix3 p 0 k) * (Ideal.rsqrt (max z _) * _)) ?_
  refine (rowSumSq512 _ _ _ _ p).trans ?_
  refine Finset.sum_congr rfl fun k' _ => ?_
  rw [shapeCast_a1b_ab_apply]

end Cert.KernelIdeal.KerPayload

end
-- ==== Proof.KerValue.lean ====
/-
  The value of the fused kernel: its output array is the similarity matrix, each row pair scaled before the dot product.

  The grid has eight points. Point t holds rows 512·t … 512·t + 511 of x and the whole of y. The first point
  multiplies every row of y by its inverse norm and keeps the result in a buffer that every later point finds
  unchanged; every point multiplies each row of its x block by that row's inverse norm and the inverse temperature and
  takes its dot products with the kept rows. So entry (p, q) of the block point t writes back is
      Σ_k (x[512·t + p, 0, k] · (invNorm · scale)) · (y[0, q, k] · invNorm),
  the entry (512·t + p, q) of the matrix; the eight blocks tile the 4096 rows, so the array ends holding the matrix.
-/
import proofs.«155782_g2000104895598713_pallasbulk_17_9_alg».proof.Proof.KerPieces
import proofs.«155782_g2000104895598713_pallasbulk_17_9_alg».proof.Proof.KerPayload
import proofs.«155782_g2000104895598713_pallasbulk_17_9_alg».proof.Proof.Spec
import Idealize.ShloMosaic.Lib.Pipeline.Value
import Idealize.ShloMosaic.Lib.ValueIdx

noncomputable section

open scoped BigOperators

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.KerPieces

variable {F : FTy → Type} [FloatOps F]

/-! ## The carried rows -/

section Carried
variable (m : (ℓ : Loc nD τ sig) → Buf (Elt F) ℓ)

/-- The first grid point stores the normalized rows of its y block into the carried buffer. -/
theorem carried_A (c : Dev nD) (t : Fin cfg0.N) (h0 : t.val % 8 = 0) :
    (outsAt0 m c t.val t.isLt).2 = k0_pay1 (iblk m c 1 t) := by
  refine (congrArg Prod.snd (outsAt0_A m c t h0)).trans ?_
  dsimp only
  exact sout_A c (grid0.coords t) (ms0_0 t) (hs0_0 t) (ms0_1 t) (hs0_1 t) (ms0_2 t) (hs0_2 t) scM0_0
    (Memref.isWhole_whole _) ((hcond0_0 t).mpr h0) (iblk m c 0 t) (iblk m c 1 t)

/-- A later grid point leaves the carried buffer as the point before left it. -/
theorem carried_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  refine (congrArg Prod.snd (outsAt0_B m c t h0)).trans ?_
  dsimp only
  unfold sout0_B_0
  rfl

/-- After every grid point the carried buffer holds the normalized rows of the y block read at the first point. -/
theorem carried_eq (c : Dev nD) (n : ℕ) (hn : n < cfg0.N) :
    (outsAt0 m c n hn).2 = k0_pay1 (iblk m c 1 t0_0) := by
  have hN : cfg0.N = 8 := N_0
  induction n with
  | zero => exact carried_A m c ⟨0, hn⟩ rfl
  | succ n ih =>
    have hB : ¬(⟨n + 1, hn⟩ : Fin cfg0.N).val % 8 = 0 := by dsimp only; omega
    exact (carried_B m c ⟨n + 1, hn⟩ hB).trans (ih (Nat.lt_of_succ_lt hn))

/-- What a grid point writes back, as one product: the scaled x block of the point against the normalized rows of
    the y block of the first point. -/
theorem flushed_pay (c : Dev nD) (t : Fin cfg0.N) :
    (dats m 0 c).flushed 2 t
      = (cfg0.win 2).cut (grid0.coords t) (k0_pay2 (iblk m c 0 t) (k0_pay1 (iblk m c 1 t0_0))) := by
  have hN : cfg0.N = 8 := N_0
  by_cases h0 : t.val % 8 = 0
  · have ht : t = t0_0 := Fin.ext (by have := t.isLt; show t.val = 0; omega)
    subst ht
    refine (Value.flushed2_A m c t0_0 h0).trans ?_
    refine congrArg ((cfg0.win 2).cut (grid0.coords t0_0)) ?_
    exact out_A c (grid0.coords t0_0) (ms0_0 t0_0) (hs0_0 t0_0) (ms0_1 t0_0) (hs0_1 t0_0) (ms0_2 t0_0) (hs0_2 t0_0) scM0_0
      (Memref.isWhole_whole _) ((hcond0_0 t0_0).mpr h0) (iblk m c 0 t0_0) (iblk m c 1 t0_0)
  · refine (Value.flushed2_B m c t h0).trans ?_
    refine congrArg ((cfg0.win 2).cut (grid0.coords t)) ?_
    refine (out_B c (grid0.coords t) (ms0_0 t) (hs0_0 t) (ms0_1 t) (hs0_1 t) (ms0_2 t) (hs0_2 t) scM0_0
      (Memref.isWhole_whole _) (fun h => h0 ((hcond0_0 t).mp h)) (iblk m c 0 t) (iblk m c 1 t)
      (outsAt0 m c (t.val - 1) (Nat.lt_of_le_of_lt (Nat.sub_le _ _) t.isLt)).2).trans ?_
    exact congrArg (k0_pay2 (iblk m c 0 t)) (carried_eq m c (t.val - 1) (Nat.lt_of_le_of_lt (Nat.sub_le _ _) t.isLt))

end Carried

/-! ## One entry of an output block -/

/-- For an x block and a y block, entry (p, q) of the product of the scaled x block with the normalized y rows is the
    rows-scaled-first similarity of row p of the x block and row q of the y block. -/
theorem entry_eq (x0 : Vec Ideal S512x1x768 .f32) (x1 : Vec Ideal S1x4096x768 .f32) (p : Fin 512) (q : Fin 4096) :
    k0_pay2 (F := Ideal) x0 (k0_pay1 (F := Ideal) x1) (ix2 p q)
      = Cert.Sim.scaleThenDot (fun k => x0 (ix3 p (0 : Fin 1) k)) (fun k => x1 (ix3 (0 : Fin 1) q k)) := by
  refine (KerPayload.pay2_apply x0 (k0_pay1 (F := Ideal) x1) p q).trans ?_
  unfold Cert.Sim.scaleThenDot
  refine Finset.sum_congr rfl fun k _ => ?_
  exact congrArg (fun z => x0 (ix3 p (0 : Fin 1) k) * (Cert.Sim.invNorm (fun k' => x0 (ix3 p (0 : Fin 1) k')) * Cert.Sim.scale) * z)
    (KerPayload.pay1_apply x1 q k)

/-! ## Where the blocks sit in the arrays -/

/-- The block indices, decided over the eight grid points: the x window and the output window move down their
    first axis with the point, the y window stays on the whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

section Blocks
variable (m : (ℓ : Loc nD τ sig) → Buf (Elt F) ℓ)

/-- Row p of the x block of point t is row 512·t + p of x. -/
theorem xblock_apply (c : Dev nD) (t : Fin cfg0.N) (p : Fin 512) (k : Fin 768) (hp : t.val * 512 + p.val < 4096) :
    (iblk m c 0 t : Vec F S512x1x768 .f32) (ix3 p (0 : Fin 1) k)
      = m ((c : Thread nD τ).loc main_arg0) (ix3 (⟨t.val * 512 + p.val, hp⟩ : Fin 4096) (0 : Fin 1) k) := by
  obtain ⟨e0, e1, e2, -⟩ := idx_facts t
  unfold iblk
  rw [View.read_apply]
  show V m c main_arg0 (((cfg0.win 0).blk t).view.emb (ix3 p (0 : Fin 1) k)) = _
  refine congrArg (m ((c : Thread nD τ).loc main_arg0)) ?_
  funext a
  apply Fin.ext
  match a with
  | ⟨0, _⟩ => show win0_0.index t (0 : Fin 3) * 512 + 1 * p.val = t.val * 512 + p.val; rw [e0]; omega
  | ⟨1, _⟩ => show win0_0.index t (1 : Fin 3) * 1 + 1 * 0 = 0; rw [e1]
  | ⟨2, _⟩ => show win0_0.index t (2 : Fin 3) * 768 + 1 * k.val = k.val; rw [e2]; omega

/-- The y block of any point is the whole of y. -/
theorem yblock_apply (c : Dev nD) (t : Fin cfg0.N) (q : Fin 4096) (k : Fin 768) :
    (iblk m c 1 t : Vec F S1x4096x768 .f32) (ix3 (0 : Fin 1) q k)
      = m ((c : Thread nD τ).loc main_arg1) (ix3 (0 : Fin 1) q k) := by
  obtain ⟨-, -, -, e3, e4, e5, -⟩ := idx_facts t
  unfold iblk
  rw [View.read_apply]
  show V m c main_arg1 (((cfg0.win 1).blk t).view.emb (ix3 (0 : Fin 1) q k)) = _
  refine congrArg (m ((c : Thread nD τ).loc main_arg1)) ?_
  funext a
  apply Fin.ext
  match a with
  | ⟨0, _⟩ => show win0_1.index t (0 : Fin 3) * 1 + 1 * 0 = 0; rw [e3]
  | ⟨1, _⟩ => show win0_1.index t (1 : Fin 3) * 4096 + 1 * q.val = q.val; rw [e4]; omega
  | ⟨2, _⟩ => show win0_1.index t (2 : Fin 3) * 768 + 1 * k.val = k.val; rw [e5]; omega

end Blocks

/-! ## What a grid point writes back, and the whole array -/

section Final
variable (m : (ℓ : Loc nD τ sig) → Buf (Elt Ideal) ℓ)

/-- Point t writes back block t of the similarity matrix in the rows-scaled-first arrangement: entry (p, q) of its
    block is the similarity of row 512·t + p of x and row q of y. -/
theorem flushed_eq (c : Dev nD) (t : Fin cfg0.N) :
    (dats m 0 c).flushed 2 t
      = ((cfg0.win 2).blk t).view.read (Elt Ideal)
          (Cert.Sim.Gs (m ((c : Thread nD τ).loc main_arg0)) (m ((c : Thread nD τ).loc main_arg1))) := by
  have hN : cfg0.N = 8 := N_0
  have ht : t.val < 8 := lt_of_lt_of_eq t.isLt hN
  obtain ⟨-, -, -, -, -, -, e6, e7⟩ := idx_facts t
  refine (flushed_pay m c t).trans ?_
  funext j
  obtain ⟨p, q, rfl⟩ : ∃ (p : Fin 512) (q : Fin 4096), j = ix2 p q := ⟨j 0, j 1, eq_ix2 j⟩
  rw [View.read_apply]
  have hp : t.val * 512 + p.val < 4096 := by have := p.isLt; omega
  have hemb : ((cfg0.win 2).blk t).view.emb (ix2 p q) = ix2 (⟨t.val * 512 + p.val, hp⟩ : Fin 4096) q := by
    funext a
    apply Fin.ext
    match a with
    | ⟨0, _⟩ => show win0_2.index t (0 : Fin 2) * 512 + 1 * p.val = t.val * 512 + p.val; rw [e6]; omega
    | ⟨1, _⟩ => show win0_2.index t (1 : Fin 2) * 4096 + 1 * q.val = q.val; rw [e7]; omega
  rw [hemb, Cert.Sim.Gs_apply]
  show k0_pay2 (F := Ideal) (iblk m c 0 t) (k0_pay1 (F := Ideal) (iblk m c 1 t0_0)) (ix2 p q) = _
  refine (entry_eq (iblk m c 0 t) (iblk m c 1 t0_0) p q).trans ?_
  exact congrArg₂ Cert.Sim.scaleThenDot (funext fun k => xblock_apply m c t p k hp) (funext fun k => yblock_apply m c t0_0 q k)

/-- An index of the output array is in point t's block iff each coordinate is in the block's range on its axis. -/
theorem mem_blk (t : Fin cfg0.N) (i : S4096x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v0).slice (win0_2.rect t)).set ↔ _
  rw [View.set_slice_whole, Rect.mem_set_unit]
  exact Iff.rfl

/-- Every row of the output lies in the block of one grid point: row r in that of point r / 512. -/
theorem cover (i : S4096x4096.Idx) :
    ∃ t : Fin cfg0.N, (cfg0.win 2).flush t = true ∧ i ∈ ((cfg0.win 2).blk t).view.set := by
  have hN : cfg0.N = 8 := N_0
  have hi0 : (i 0).val < 4096 := (i 0).isLt
  have hi1 : (i 1).val < 4096 := (i 1).isLt
  have hlt : (i 0).val / 512 < cfg0.N := by rw [hN]; omega
  obtain ⟨-, -, -, -, -, -, e6, e7⟩ := idx_facts ⟨(i 0).val / 512, hlt⟩
  refine ⟨⟨(i 0).val / 512, hlt⟩, flush0_2 _, ?_⟩
  rw [mem_blk]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    rw [e6]; dsimp only; omega
  | ⟨1, _⟩ =>
    show win0_2.index ⟨(i 0).val / 512, hlt⟩ (1 : Fin 2) * 4096 ≤ (i 1).val
      ∧ (i 1).val < win0_2.index ⟨(i 0).val / 512, hlt⟩ (1 : Fin 2) * 4096 + 4096
    rw [e7]; omega

/-- So the output array ends holding the similarity matrix in the rows-scaled-first arrangement. -/
theorem final (c : Dev nD) :
    (dats m 0 c).arrAt 2 cfg0.N
      = Cert.Sim.Gs (m ((c : Thread nD τ).loc main_arg0)) (m ((c : Thread nD τ).loc main_arg1)) :=
  (dats m 0 c).arrAt_eq_of_cover 2
    (Cert.Sim.Gs (m ((c : Thread nD τ).loc main_arg0)) (m ((c : Thread nD τ).loc main_arg1)))
    (fun t _ => flushed_eq m c t) cover

end Final

/-- The fused kernel's run: the output array at the similarity matrix, the two arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = Cert.Sim.Gs (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KerValue

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.RefPayload.lean ====
/-
  The reference's matrix kernel, one output entry at a time.

  On a 512 × 768 block L, a 768 × 512 block R, a 512 × 1 column u and a 1 × 512 row v, the kernel's stored value
  at (p, q) is the matrix product's entry times the column's entry of row p times the row's entry of column q:
      ((Σ_k L[p, k] · R[k, q]) · u[p, 0]) · v[0, q].
  The four casts to the same shape are identities; the product into the zero accumulator is the plain sum over
  the contracted axis; the column is spread along each row and the row along each column.
-/
import proofs.«155782_g2000104895598713_pallasbulk_17_9_alg».proof.Proof.Gen.ReferenceIdeal.Skeleton
import proofs.«155782_g2000104895598713_pallasbulk_17_9_alg».proof.Proof.LibMatmul
import proofs.«155782_g2000104895598713_pallasbulk_17_9_alg».proof.Proof.LibUnitAxis
import Idealize.ShloMosaic.Lib.Pipeline.Value
import Idealize.ShloMosaic.Lib.ValueIdx
import Idealize.ShloMosaic.Lib.ValueLayout

noncomputable section

open scoped BigOperators

namespace Cert.ReferenceIdeal.RefPayload

open Cert.ReferenceIdeal Cert.ReferenceIdeal.Gen Idealize.ShloMosaic Idealize.ShloMosaic.ValueIdx

/-- The kernel's dimension numbers are those of a plain 512 × 768 by 768 × 512 product. -/
theorem dot_eq_plain : dot_S512x768_S768x512_S512x512_1_0_0_1_n_n = DotDims.plain 512 768 512 := rfl

/-- The stored value at (p, q): the product's entry, times the column at row p, times the row at column q. -/
theorem payload_apply (x0 : Vec Ideal S512x768 .f32) (x1 : Vec Ideal S768x512 .f32) (x2 : Vec Ideal S512x1 .f32)
    (x3 : Vec Ideal S1x512 .f32) (p q : Fin 512) :
    k0_pay1 (F := Ideal) x0 x1 x2 x3 (ix2 p q)
      = ((∑ k : Fin 768, x0 (ix2 p k) * x1 (ix2 k q)) * x2 (ix2 p (0 : Fin 1))) * x3 (ix2 (0 : Fin 1) q) := by
  unfold k0_pay1
  rw [shapeCast_self, shapeCast_self, shapeCast_self, shapeCast_self]
  refine congrArg₂ (· * ·) (congrArg₂ (· * ·) ?_ ?_) ?_
  · exact Cert.Bridge.LibMatmul.matmul_zero_apply (M := 512) (K := 768) (N := 512) none x0 x1 p q
  · exact Cert.Lib.UnitAxis.broadcastTo_a1_ab_apply x2 _ p q
  · exact broadcastTo_1b_ab_apply x3 _ p q

end Cert.ReferenceIdeal.RefPayload

end
-- ==== Proof.RefHost.lean ====
/-
  The four arrays the reference's host operations hand to its matrix kernel, read at an index.

  The host operations drop the unit axis of x ([4096, 1, 768]) and of y ([1, 4096, 768]); on each of the two
  4096 × 768 matrices they square every entry, sum along each row, keep the row axis as a column, floor the sum
  by ε and take the reciprocal square root. The column of x is then multiplied by the scale, the column of y is
  transposed into a row, and y's matrix is transposed. Each array is first stated whole, as the composition of these
  operations applied to the launch contents, and then read one entry at a time: a cast keeps row-major positions, a
  transpose swaps the two coordinates, a kept-axis broadcast reads the vector at the row, a broadcast scalar reads
  the same word everywhere, and the row sum is the sum over the 768 entries of the row.
-/
import proofs.«155782_g2000104895598713_pallasbulk_17_9_alg».proof.Proof.Gen.ReferenceIdeal.Frame
import proofs.«155782_g2000104895598713_pallasbulk_17_9_alg».proof.Proof.Spec
import proofs.«155782_g2000104895598713_pallasbulk_17_9_alg».proof.Proof.LibUnitAxis
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.RefHost

open Cert.ReferenceIdeal Cert.ReferenceIdeal.Gen Idealize.ShloMosaic Idealize.ShloMosaic.TcCoe Idealize.ShloMosaic.ValueIdx Idealize.SL.Sem

variable (m : (ℓ : Loc nD τ sig) → Buf (Elt Ideal) ℓ)

/-! ## The arrays as the host operations' composed terms

Both inverse-norm chains are the same function of a 4096 × 768 matrix; it is named once, and each of the four arrays
is the launch contents under a cast, this function, a product with the broadcast scale, or a transpose. -/

/-- The column of floored inverse norms of the rows of a 4096 × 768 matrix, as the host operations compute it:
    square every entry, sum along each row, keep the row axis as a column, floor by ε, take the reciprocal square root. -/
def invNormCol (z : FVec Ideal S4096x768 .f32) : FVec Ideal S4096x1 .f32 :=
  Host.rsqrt (F := Ideal)
    (maximumf
      (broadcastInDim S4096x1 ![0] Facts₀.bcast_S4096_S4096x1_0
        (Host.reduceAdd (F := Ideal) (mulf z z) (constant (F := Ideal) S_ .f32 0x00000000#32) Facts₀.reducesTo_S4096x768_S4096_d1 Facts₀.h_S_))
      (broadcastInDim S4096x1 ![] Facts₀.bcast_S_S4096x1 (constant (F := Ideal) S_ .f32 0x24E69595#32)))

/-- The left operand, whole: x cast from [4096, 1, 768] to [4096, 768]. -/
theorem v0_eq (c : Dev nD) :
    (V m c main_v0 : S4096x768.Idx → EReal)
      = shapeCast S4096x768 (m ((c : Thread nD τ).loc main_arg0)) Facts₀.shapeCasts_S4096x1x768_S4096x768 := by
  dsimp only [Gen.V, Gen.hostOps0]; after_results; rfl

/-- The right operand, whole: y cast from [1, 4096, 768] to [4096, 768], then transposed. -/
theorem v17_eq (c : Dev nD) :
    (V m c main_v17 : S768x4096.Idx → EReal)
      = transpose S768x4096 [1, 0] (shapeCast S4096x768 (m ((c : Thread nD τ).loc main_arg1)) Facts₀.shapeCasts_S1x4096x768_S4096x768)
          Facts₀.transposes_S4096x768_S768x4096_1_0 := by
  dsimp only [Gen.V, Gen.hostOps0]; after_results; rfl

/-- The scaled column, whole: the inverse norms of x's rows times the scale broadcast from a scalar. -/
theorem v9_eq (c : Dev nD) :
    (V m c main_v9 : S4096x1.Idx → EReal)
      = mulf (invNormCol (shapeCast S4096x768 (m ((c : Thread nD τ).loc main_arg0)) Facts₀.shapeCasts_S4096x1x768_S4096x768))
          (broadcastInDim S4096x1 ![] Facts₀.bcast_S_S4096x1 (constant (F := Ideal) S_ .f32 0x41A00000#32)) := by
  dsimp only [Gen.V, Gen.hostOps0]; after_results; rfl

/-- The row, whole: the column of inverse norms of y's rows, transposed. -/
theorem v16_eq (c : Dev nD) :
    (V m c main_v16 : S1x4096.Idx → EReal)
      = transpose S1x4096 [1, 0]
          (invNormCol (shapeCast S4096x768 (m ((c : Thread nD τ).loc main_arg1)) Facts₀.shapeCasts_S1x4096x768_S4096x768))
          Facts₀.transposes_S4096x1_S1x4096_1_0 := by
  dsimp only [Gen.V, Gen.hostOps0]; after_results; rfl

/-! ## Read at an index

Outermost operation first: the reciprocal square root and the maximum are entrywise; the kept-axis broadcast reads the
vector of row sums at p; the row sum is the zero initial value plus the sum over the inserted coordinate; the floor is
a scalar broadcast. -/

/-- The column's entry of row p is the floored inverse norm of row p. -/
theorem invNormCol_apply (z : FVec Ideal S4096x768 .f32) (p : Fin 4096) :
    invNormCol z (ix2 p (0 : Fin 1)) = Cert.Sim.invNorm (fun k : Fin 768 => z (ix2 p k)) := by
  unfold invNormCol Cert.Sim.invNorm
  refine congrArg Ideal.rsqrt ?_
  refine (maximumf_apply _ _ _).trans ?_
  refine congrArg₂ max ?_ ?_
  · -- the kept axis: the column's entry of row p is the row's sum
    refine (broadcastInDim_apply _ Facts₀.bcast_S4096_S4096x1_0 _ (ix2 p (0 : Fin 1)) (ix1 p)
      (fun a => match a with | ⟨0, _⟩ => rfl)).trans ?_
    refine (hostReduceAdd_apply _ _ _ _ _).trans ?_
    refine (Ideal.hostReduceAdd_single Facts₀.reducesTo_S4096x768_S4096_d1 (by decide) _ _ (ix1 p)).trans ?_
    rw [constant_apply, Ideal.ofBits_zero_f32, zero_add]
    refine Finset.sum_congr rfl fun k _ => ?_
    -- the index with coordinate k inserted on the summed axis is (p, k)
    have e : ∀ h : S4096x768.Reduces [1] S4096, h.lift (ix1 p) k = ix2 p k := fun h =>
      funext fun a => Fin.ext (match a with | ⟨0, _⟩ => rfl | ⟨1, _⟩ => rfl)
    exact congrArg (fun i => z i * z i) (e _)
  · -- the floor is the same word everywhere
    exact (broadcastInDim_scalar_apply _ _ _).trans rfl

/-- The left operand is x with its unit axis dropped. -/
theorem V_v0 (c : Dev nD) (p : Fin 4096) (k : Fin 768) :
    (V m c main_v0 : S4096x768.Idx → EReal) (ix2 p k) = m ((c : Thread nD τ).loc main_arg0) (ix3 p (0 : Fin 1) k) :=
  (congrFun (v0_eq m c) (ix2 p k)).trans
    (Cert.Lib.UnitAxis.shapeCast_a1b_ab_apply (a := 4096) (b := 768) _ _ p k)

/-- The right operand is y with its unit axis dropped, transposed. -/
theorem V_v17 (c : Dev nD) (k : Fin 768) (q : Fin 4096) :
    (V m c main_v17 : S768x4096.Idx → EReal) (ix2 k q) = m ((c : Thread nD τ).loc main_arg1) (ix3 (0 : Fin 1) q k) :=
  (congrFun (v17_eq m c) (ix2 k q)).trans
    ((transpose_ix2_apply (a := 4096) (b := 768) _ _ k q).trans
      (shapeCast_1ab_ab_apply (a := 4096) (b := 768) _ _ q k))

/-- The column of scaled inverse norms of x's rows. -/
theorem V_v9 (c : Dev nD) (p : Fin 4096) :
    (V m c main_v9 : S4096x1.Idx → EReal) (ix2 p (0 : Fin 1))
      = Cert.Sim.invNorm (Cert.Sim.xrow (m ((c : Thread nD τ).loc main_arg0)) p) * Cert.Sim.scale := by
  refine (congrFun (v9_eq m c) (ix2 p (0 : Fin 1))).trans ?_
  refine (mulf_apply _ _ _).trans ?_
  refine congrArg₂ (· * ·) ?_ ?_
  · -- row p of x without its unit axis is row p of x
    refine (invNormCol_apply _ p).trans ?_
    exact congrArg Cert.Sim.invNorm
      (funext fun k => Cert.Lib.UnitAxis.shapeCast_a1b_ab_apply (a := 4096) (b := 768) _ _ p k)
  · -- the scale is the same word everywhere
    exact (broadcastInDim_scalar_apply _ _ _).trans rfl

/-- The row of inverse norms of y's rows. -/
theorem V_v16 (c : Dev nD) (q : Fin 4096) :
    (V m c main_v16 : S1x4096.Idx → EReal) (ix2 (0 : Fin 1) q)
      = Cert.Sim.invNorm (Cert.Sim.yrow (m ((c : Thread nD τ).loc main_arg1)) q) := by
  refine (congrFun (v16_eq m c) (ix2 (0 : Fin 1) q)).trans ?_
  refine (transpose_ix2_apply (a := 4096) (b := 1) _ _ (0 : Fin 1) q).trans ?_
  refine (invNormCol_apply _ q).trans ?_
  exact congrArg Cert.Sim.invNorm
    (funext fun k => shapeCast_1ab_ab_apply (a := 4096) (b := 768) _ _ q k)

end Cert.ReferenceIdeal.RefHost

end
-- ==== Proof.RefValue.lean ====
/-
  The reference's output array, from its blocks.

  The reference computes the 4096 × 4096 similarity matrix in 8 × 8 blocks of 512 × 512. At the point with output
  block index (i, j) its matrix kernel reads rows 512·i … 512·i + 511 of x (a 512 × 768 block), columns
  512·j … 512·j + 511 of y transposed (a 768 × 512 block), the matching 512 entries of the column of scaled
  inverse norms of x's rows and of the row of inverse norms of y's rows, and stores
      ((Σ_k L[p, k] · R[k, q]) · u[p, 0]) · v[0, q]
  at (p, q). That is entry (512·i + p, 512·j + q) of the matrix whose entry (P, Q) is the dot product of row P of x
  and row Q of y, times x's scaled inverse norm of row P, times y's inverse norm of row Q. Every entry (r, s) lies in
  the block of the point with block index (r / 512, s / 512), so after the run the array is that matrix.

  Written here: the relations between the block index maps, decided over the 64 points; one entry over arbitrary
  blocks; where an element of each input block sits in its array; what a point writes back; the cover; the array
  after the run; the run.
-/
import proofs.«155782_g2000104895598713_pallasbulk_17_9_alg».proof.Proof.Gen.ReferenceIdeal.Value
import proofs.«155782_g2000104895598713_pallasbulk_17_9_alg».proof.Proof.RefPayload
import proofs.«155782_g2000104895598713_pallasbulk_17_9_alg».proof.Proof.RefHost
import proofs.«155782_g2000104895598713_pallasbulk_17_9_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of a whole-block access, as a constant function. -/
theorem hz : (![0, 0] : Fin 2 → Nat) = fun _ => 0 := funext fun a => by fin_cases a <;> rfl

/-- The block index maps at every grid point: the left operand and the column follow the output's row block, the
    right operand and the row follow its column block, every other block index is zero, and the output's block
    indices stay below 8. -/
theorem idx_facts : ∀ t : Fin cfg0.N,
      win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every pair of block indices is some grid point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- ONE ENTRY, over any blocks: if row p of the left block is row P of x, column q of the right block is row Q of y,
    the column block holds x's scaled inverse norm of row P and the row block holds y's inverse norm of row Q,
    then the kernel's stored value at (p, q) is the similarity matrix's entry (P, Q), the dot product taken first. -/
theorem entry_eq (x : FVec Ideal Cert.Sim.SX .f32) (y : FVec Ideal Cert.Sim.SY .f32)
    (x0 : Vec Ideal S512x768 .f32) (x1 : Vec Ideal S768x512 .f32) (x2 : Vec Ideal S512x1 .f32) (x3 : Vec Ideal S1x512 .f32)
    (p q : Fin 512) (P Q : Fin 4096)
    (h0 : ∀ k : Fin 768, x0 (ix2 p k) = x (ix3 P (0 : Fin 1) k))
    (h1 : ∀ k : Fin 768, x1 (ix2 k q) = y (ix3 (0 : Fin 1) Q k))
    (h2 : x2 (ix2 p (0 : Fin 1)) = Cert.Sim.invNorm (Cert.Sim.xrow x P) * Cert.Sim.scale)
    (h3 : x3 (ix2 (0 : Fin 1) q) = Cert.Sim.invNorm (Cert.Sim.yrow y Q)) :
    k0_pay1 (F := Ideal) x0 x1 x2 x3 (ix2 p q) = Cert.Sim.G x y (ix2 P Q) := by
  rw [RefPayload.payload_apply, Cert.Sim.G_apply, h2, h3]
  have hs : (∑ k : Fin 768, x0 (ix2 p k) * x1 (ix2 k q))
      = ∑ k : Fin 768, Cert.Sim.xrow x P k * Cert.Sim.yrow y Q k :=
    Finset.sum_congr rfl fun k _ => by rw [h0 k, h1 k]; rfl
  rw [hs]
  rfl

/-- An element of the left operand's block at a point sits in the array at block index × block size + its own
    coordinate, on each axis. -/
theorem blk0 (c : Dev nD) (t : Fin cfg0.N) (x : S512x768.Idx) (k : S4096x768.Idx)
    (hk0 : (k 0).val = win0_0.index t (0 : Fin 2) * 512 + (x 0).val)
    (hk1 : (k 1).val = win0_0.index t (1 : Fin 2) * 768 + (x 1).val) :
    (iblk m c 0 t : Vec Ideal S512x768 .f32) x = (V m c main_v0 : S4096x768.Idx → EReal) k := by
  unfold iblk
  rw [View.read_apply]
  show (V m c main_v0 : S4096x768.Idx → EReal) _ = _
  refine congrArg _ (funext fun a => Fin.ext ?_)
  match a with
  | ⟨0, _⟩ => show win0_0.index t (0 : Fin 2) * 512 + 1 * (x 0).val = (k 0).val; omega
  | ⟨1, _⟩ => show win0_0.index t (1 : Fin 2) * 768 + 1 * (x 1).val = (k 1).val; omega

/-- The same for the right operand's block. -/
theorem blk1 (c : Dev nD) (t : Fin cfg0.N) (x : S768x512.Idx) (k : S768x4096.Idx)
    (hk0 : (k 0).val = win0_1.index t (0 : Fin 2) * 768 + (x 0).val)
    (hk1 : (k 1).val = win0_1.index t (1 : Fin 2) * 512 + (x 1).val) :
    (iblk m c 1 t : Vec Ideal S768x512 .f32) x = (V m c main_v17 : S768x4096.Idx → EReal) k := by
  unfold iblk
  rw [View.read_apply]
  show (V m c main_v17 : S768x4096.Idx → EReal) _ = _
  refine congrArg _ (funext fun a => Fin.ext ?_)
  match a with
  | ⟨0, _⟩ => show win0_1.index t (0 : Fin 2) * 768 + 1 * (x 0).val = (k 0).val; omega
  | ⟨1, _⟩ => show win0_1.index t (1 : Fin 2) * 512 + 1 * (x 1).val = (k 1).val; omega

/-- The same for the column's block. -/
theorem blk2 (c : Dev nD) (t : Fin cfg0.N) (x : S512x1.Idx) (k : S4096x1.Idx)
    (hk0 : (k 0).val = win0_2.index t (0 : Fin 2) * 512 + (x 0).val)
    (hk1 : (k 1).val = win0_2.index t (1 : Fin 2) * 1 + (x 1).val) :
    (iblk m c 2 t : Vec Ideal S512x1 .f32) x = (V m c main_v9 : S4096x1.Idx → EReal) k := by
  unfold iblk
  rw [View.read_apply]
  show (V m c main_v9 : S4096x1.Idx → EReal) _ = _
  refine congrArg _ (funext fun a => Fin.ext ?_)
  match a with
  | ⟨0, _⟩ => show win0_2.index t (0 : Fin 2) * 512 + 1 * (x 0).val = (k 0).val; omega
  | ⟨1, _⟩ => show win0_2.index t (1 : Fin 2) * 1 + 1 * (x 1).val = (k 1).val; omega

/-- The same for the row's block. -/
theorem blk3 (c : Dev nD) (t : Fin cfg0.N) (x : S1x512.Idx) (k : S1x4096.Idx)
    (hk0 : (k 0).val = win0_3.index t (0 : Fin 2) * 1 + (x 0).val)
    (hk1 : (k 1).val = win0_3.index t (1 : Fin 2) * 512 + (x 1).val) :
    (iblk m c 3 t : Vec Ideal S1x512 .f32) x = (V m c main_v16 : S1x4096.Idx → EReal) k := by
  unfold iblk
  rw [View.read_apply]
  show (V m c main_v16 : S1x4096.Idx → EReal) _ = _
  refine congrArg _ (funext fun a => Fin.ext ?_)
  match a with
  | ⟨0, _⟩ => show win0_3.index t (0 : Fin 2) * 1 + 1 * (x 0).val = (k 0).val; omega
  | ⟨1, _⟩ => show win0_3.index t (1 : Fin 2) * 512 + 1 * (x 1).val = (k 1).val; omega

/-- WHAT POINT t WRITES BACK is block t of the similarity matrix of the two arguments. Entry (p, q) of the block is
    entry (512 · i + p, 512 · j + q) of the matrix, (i, j) the point's output block index; the left block and the
    column are read at row block i, the right block and the row at column block j. -/
theorem flushed_eq (c : Dev nD) (t : Fin cfg0.N) :
    (dats m 0 c).flushed 4 t = ((cfg0.win 4).blk t).view.read (Elt Ideal)
      (Cert.Sim.G (m ((c : Thread nD τ).loc main_arg0)) (m ((c : Thread nD τ).loc main_arg1))) := by
  rw [Value.flushed4]
  unfold out0_4
  rw [View.canon_unit_zero hz]
  simp only [View.ld_unit_zero (S := S512x768) hz, View.ld_unit_zero (S := S768x512) hz,
    View.ld_unit_zero (S := S512x1) hz, View.ld_unit_zero (S := S1x512) hz]
  obtain ⟨e00, e01, e10, e11, e20, e21, e30, e31, b0, b1⟩ := idx_facts t
  refine funext fun (j : S512x512.Idx) => ?_
  obtain ⟨p, q, rfl⟩ : ∃ (p q : Fin 512), j = ix2 p q := ⟨j 0, j 1, eq_ix2 j⟩
  have hp : p.val < 512 := p.isLt
  have hq : q.val < 512 := q.isLt
  show k0_pay1 (F := Ideal) (iblk m c 0 t) (iblk m c 1 t) (iblk m c 2 t) (iblk m c 3 t) (ix2 p q)
    = Cert.Sim.G (m ((c : Thread nD τ).loc main_arg0)) (m ((c : Thread nD τ).loc main_arg1))
        (((cfg0.win 4).blk t).view.emb (ix2 p q))
  have hemb : ((cfg0.win 4).blk t).view.emb (ix2 p q)
      = (ix2 (⟨win0_4.index t (0 : Fin 2) * 512 + p.val, by omega⟩ : Fin 4096)
             (⟨win0_4.index t (1 : Fin 2) * 512 + q.val, by omega⟩ : Fin 4096) : S4096x4096.Idx) := by
    funext a; apply Fin.ext
    match a with
    | ⟨0, _⟩ => show win0_4.index t (0 : Fin 2) * 512 + 1 * p.val = win0_4.index t (0 : Fin 2) * 512 + p.val; omega
    | ⟨1, _⟩ => show win0_4.index t (1 : Fin 2) * 512 + 1 * q.val = win0_4.index t (1 : Fin 2) * 512 + q.val; omega
  rw [hemb]
  refine entry_eq (m ((c : Thread nD τ).loc main_arg0)) (m ((c : Thread nD τ).loc main_arg1))
    (iblk m c 0 t) (iblk m c 1 t) (iblk m c 2 t) (iblk m c 3 t) p q
    ⟨win0_4.index t (0 : Fin 2) * 512 + p.val, by omega⟩ ⟨win0_4.index t (1 : Fin 2) * 512 + q.val, by omega⟩
    (fun k => ?_) (fun k => ?_) ?_ ?_
  · refine (blk0 m c t (ix2 p k) (ix2 ⟨win0_4.index t (0 : Fin 2) * 512 + p.val, by omega⟩ k) ?_ ?_).trans
      (RefHost.V_v0 m c _ k)
    · show win0_4.index t (0 : Fin 2) * 512 + p.val = win0_0.index t (0 : Fin 2) * 512 + p.val; omega
    · show k.val = win0_0.index t (1 : Fin 2) * 768 + k.val; omega
  · refine (blk1 m c t (ix2 k q) (ix2 k ⟨win0_4.index t (1 : Fin 2) * 512 + q.val, by omega⟩) ?_ ?_).trans
      (RefHost.V_v17 m c k _)
    · show k.val = win0_1.index t (0 : Fin 2) * 768 + k.val; omega
    · show win0_4.index t (1 : Fin 2) * 512 + q.val = win0_1.index t (1 : Fin 2) * 512 + q.val; omega
  · refine (blk2 m c t (ix2 p (0 : Fin 1)) (ix2 ⟨win0_4.index t (0 : Fin 2) * 512 + p.val, by omega⟩ (0 : Fin 1)) ?_ ?_).trans
      (RefHost.V_v9 m c _)
    · show win0_4.index t (0 : Fin 2) * 512 + p.val = win0_2.index t (0 : Fin 2) * 512 + p.val; omega
    · show (0 : Nat) = win0_2.index t (1 : Fin 2) * 1 + 0; omega
  · refine (blk3 m c t (ix2 (0 : Fin 1) q) (ix2 (0 : Fin 1) ⟨win0_4.index t (1 : Fin 2) * 512 + q.val, by omega⟩) ?_ ?_).trans
      (RefHost.V_v16 m c _)
    · show (0 : Nat) = win0_3.index t (0 : Fin 2) * 1 + 0; omega
    · show win0_4.index t (1 : Fin 2) * 512 + q.val = win0_3.index t (1 : Fin 2) * 512 + q.val; omega

/-- An index of the output array is in point t's block iff each coordinate is in the block's range on its axis. -/
theorem mem_blk (t : Fin cfg0.N) (i : S4096x4096.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v18).slice (win0_4.rect t)).set ↔ _
  rw [View.set_slice_whole, Rect.mem_set_unit]
  exact Iff.rfl

/-- THE COVER: entry (r, s) of the output is in the block of the point whose block index is (r / 512, s / 512). -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 512, by omega⟩ ⟨(i 1).val / 512, by omega⟩
  have q0 : win0_4.index t (0 : Fin 2) = (i 0).val / 512 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- THE ARRAY after the run is the similarity matrix of the two arguments, the dot product taken first. -/
theorem final (c : Dev nD) : (dats m 0 c).arrAt 4 cfg0.N
    = Cert.Sim.G (m ((c : Thread nD τ).loc main_arg0)) (m ((c : Thread nD τ).loc main_arg1)) :=
  (dats m 0 c).arrAt_eq_of_cover 4 (Cert.Sim.G (m ((c : Thread nD τ).loc main_arg0)) (m ((c : Thread nD τ).loc main_arg1)))
    (fun t _ => flushed_eq m c t) cover

/-- The run, read: the output array at the similarity matrix of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v18) = Cert.Sim.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.ReferenceIdeal.RefValue

end
-- ==== Proof.lean ====
/-
  The cosine-similarity matrix of the rows of x against the rows of y, scaled by 20: the fused kernel against its
  reference, on the extended reals.

  Both programs compute, for row p of x and row q of y, the dot product of the two rows together with the two inverse
  norms rsqrt (max (Σ_k r_k², ε)) and the scale. The reference takes the plain dot product first (a matrix kernel over
  x and the transposed y) and multiplies by the column of scaled inverse norms of x and the row of inverse norms of y,
  both computed beforehand by host operations. The fused kernel multiplies each row by its inverse norm first — y's
  rows once, at the first grid point, kept in a scratch buffer for the later points; x's rows block by block — and
  takes the dot product of the scaled rows. The two arrangements are one function of the inputs when every input entry
  is a real number (the sums of squares are then real, the floor ε makes them positive, so the inverse norms are real
  and the distributive law applies); the precondition says exactly that every entry is finite.

  The three frames are the generated ones; the idealization rewrote nothing.
-/
import proofs.«155782_g2000104895598713_pallasbulk_17_9_alg».proof.Defs
import proofs.«155782_g2000104895598713_pallasbulk_17_9_alg».proof.Proof.Gen.Kernel
import proofs.«155782_g2000104895598713_pallasbulk_17_9_alg».proof.Proof.Gen.Kernel.Frame
import proofs.«155782_g2000104895598713_pallasbulk_17_9_alg».proof.Proof.Gen.KernelIdeal
import proofs.«155782_g2000104895598713_pallasbulk_17_9_alg».proof.Proof.Gen.KernelIdeal.Frame
import proofs.«155782_g2000104895598713_pallasbulk_17_9_alg».proof.Proof.Gen.ReferenceIdeal
import proofs.«155782_g2000104895598713_pallasbulk_17_9_alg».proof.Proof.Gen.ReferenceIdeal.Frame
import proofs.«155782_g2000104895598713_pallasbulk_17_9_alg».proof.Proof.Gen.Pre_finite_inputs
import proofs.«155782_g2000104895598713_pallasbulk_17_9_alg».proof.Proof.Spec
import proofs.«155782_g2000104895598713_pallasbulk_17_9_alg».proof.Proof.Algebra
import proofs.«155782_g2000104895598713_pallasbulk_17_9_alg».proof.Proof.Finite
import proofs.«155782_g2000104895598713_pallasbulk_17_9_alg».proof.Proof.KerValue
import proofs.«155782_g2000104895598713_pallasbulk_17_9_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- Both runs end with the similarity matrix in the dot-product-first arrangement: the reference's run as it is, the
    kernel's run after the two arrangements are identified on the finite inputs the precondition grants. -/
theorem algebraic : Cert.algebraic_KernelIdeal_ReferenceIdeal := by
  intro m ρ m' ρ' hpre hagree
  refine ⟨fun c => Cert.Sim.G (m ((c : Thread Cert.KernelIdeal.nD Cert.KernelIdeal.τ).loc Cert.KernelIdeal.main_arg0))
    (m ((c : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩) (Cert.KernelIdeal.KerValue.run m ρ)
    obtain ⟨hx, hy⟩ := Cert.Sim.Finite.finite_of_fn _ _ (hpre c)
    exact Cert.Sim.Gs_eq_G _ _ hx hy Cert.Sim.Finite.eps_pos Cert.Sim.Finite.scale_real
  · refine (θ_run Cert.ReferenceIdeal.defs _ _).mono (fun r h c => ⟨(h c).1.trans ?_, (h c).2⟩) (Cert.ReferenceIdeal.RefValue.run m' ρ')
    rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
